-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 10
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | .local _ .vmem, ⟨10, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048, .f32⟩
  | .hbm, ⟨6, _⟩ => ⟨S_, .f32⟩
  | .hbm, ⟨7, _⟩ => ⟨S2x16x2048, .f32⟩
  | .hbm, ⟨8, _⟩ => ⟨S2x16x2048, .f32⟩
  | .hbm, ⟨9, _⟩ => ⟨S2x16x2048x1, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one grid point leaves behind, as values. A point's body makes three stores: the value block recast into the
  buffer carried between points (only when the second grid coordinate is zero), the context block, and the weights
  block. Each store covers its whole buffer, so what a buffer holds after the point is that store's payload, a pure
  function of the blocks the point loaded; at a point that does not refresh the carried buffer the context reads
  what the point before left there.
-/
import proofs.«104663_j62783831933126_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Offsets of a whole-block access, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-! ## A point that refreshes the carried value block (second grid coordinate zero) -/

/-- The carried buffer ends holding the value block, recast. -/
theorem carried_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (hc0 : cond0_0 i)
    (x0 : Vec F S1x512x64 .f32) (x1 : Vec F S1x2048x64 .f32) (x2 : Vec F S1x2048x64 .f32) :
    sout0_A_0 c i arg2 harg2 arg3 harg3 arg4 harg4 arg5 harg5 arg6 harg6 arg7 harg7 hc0 x0 x1 x2 = k0_pay1 x2 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x64) hz3]

/-- The context block is the weighted sum over the value block just stored (read back from the carried buffer). -/
theorem context_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (hc0 : cond0_0 i)
    (x0 : Vec F S1x512x64 .f32) (x1 : Vec F S1x2048x64 .f32) (x2 : Vec F S1x2048x64 .f32) :
    out0_A_3 c i arg2 harg2 arg3 harg3 arg4 harg4 arg5 harg5 arg6 harg6 arg7 harg7 hc0 x0 x1 x2 = k0_pay3 x0 x1 (k0_pay1 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3, View.readCov_unit_zero (S := S2048x64) _ hz2]
  simp only [View.readAt_eq_ld, harg2.read_unread, harg3.read_unread, harg4.read_unread,
    View.ld_unit_zero (S := S1x512x64) hz3, View.ld_unit_zero (S := S1x2048x64) hz3]

/-- The weights block is the row softmax of the query block against the key block. -/
theorem weights_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (hc0 : cond0_0 i)
    (x0 : Vec F S1x512x64 .f32) (x1 : Vec F S1x2048x64 .f32) (x2 : Vec F S1x2048x64 .f32) :
    out0_A_4 c i arg2 harg2 arg3 harg3 arg4 harg4 arg5 harg5 arg6 harg6 arg7 harg7 hc0 x0 x1 x2 = k0_pay4 x0 x1 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread,
    View.ld_unit_zero (S := S1x512x64) hz3, View.ld_unit_zero (S := S1x2048x64) hz3]

/-! ## A point that keeps the carried value block -/

/-- The context block is the weighted sum over the carried block. -/
theorem context_B (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (hc0 : ¬cond0_0 i)
    (x0 : Vec F S1x512x64 .f32) (x1 : Vec F S1x2048x64 .f32) (x2 : Vec F S1x2048x64 .f32) (xs0 : Vec F S2048x64 .bf16) :
    out0_B_3 c i arg2 harg2 arg3 harg3 arg4 harg4 arg5 harg5 arg6 harg6 arg7 harg7 hc0 x0 x1 x2 xs0 = k0_pay3 x0 x1 xs0 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  rw [View.canon_unit_zero hz3]
  simp only [View.readAt_eq_ld, harg2.read_unread, harg3.read_unread, harg7.read_unread,
    View.ld_unit_zero (S := S1x512x64) hz3, View.ld_unit_zero (S := S1x2048x64) hz3, View.ld_unit_zero (S := S2048x64) hz2]

/-- The weights block, as at a refreshing point. -/
theorem weights_B (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (hc0 : ¬cond0_0 i)
    (x0 : Vec F S1x512x64 .f32) (x1 : Vec F S1x2048x64 .f32) (x2 : Vec F S1x2048x64 .f32) (xs0 : Vec F S2048x64 .bf16) :
    out0_B_4 c i arg2 harg2 arg3 harg3 arg4 harg4 arg5 harg5 arg6 harg6 arg7 harg7 hc0 x0 x1 x2 xs0 = k0_pay4 x0 x1 := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  rw [View.canon_unit_zero hz3]
  simp only [View.readAt_eq_ld, harg2.read_unread, harg3.read_unread,
    View.ld_unit_zero (S := S1x512x64) hz3, View.ld_unit_zero (S := S1x2048x64) hz3]

end Cert.KernelIdeal.Pieces

end
-- ==== Proof.PointValues.lean ====
/-
  What every grid point leaves, in closed form. The grid has 32 x 4 points; point `t` works on head `t / 4` and on
  the query rows `512 (t % 4) .. 512 (t % 4) + 511`. The key and value blocks of a point are the whole key and value
  matrices of its head, so they are the same at the four points of a head. The buffer carried between points holds,
  after every point, the value matrix of that point's head: it is refreshed at the first point of each head and kept
  at the other three. So at every point the context block is the weights against the head's value matrix.
-/
import proofs.«104663_j62783831933126_2_alg».proof.Proof.Pieces
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PointValues

open Cert.KernelIdeal Cert.KernelIdeal.Gen Cert.KernelIdeal.Pieces

variable {F : FTy → Type} [FloatOps F]
variable (m : (ℓ : Loc nD τ sig) → Buf (Elt F) ℓ)

/-- The printed index maps, decided over the grid: the leading block index of every window is the head `t / 4`; the
    query, context and weights windows move along the rows with `t % 4`; the key and value windows do not move. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

theorem hN : cfg0.N = 128 := N_0

/-- The head a point works on. -/
def head (t : Fin cfg0.N) : Fin 32 := ⟨t.val / 4, by have := t.isLt; have := hN; omega⟩

/-- The row of the whole matrix that row `r` of a point's query tile is. -/
def row (t : Fin cfg0.N) (r : Fin 512) : Fin 2048 := ⟨512 * (t.val % 4) + r.val, by have := r.isLt; omega⟩

/-- The query block of point `t`: rows `512 (t % 4) + r` of head `t / 4`. -/
theorem qblock_apply (c : Dev nD) (t : Fin cfg0.N) (u : Fin 1) (r : Fin 512) (d : Fin 64) :
    (iblk m c 0 t : Vec F S1x512x64 .f32) (ix3 u r d) = V m c main_v0 (ix3 (head t) (row t r) d) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * u.val = t.val / 4; have := u.isLt; omega
  | ⟨1, _⟩ => show win0_0.index t (1 : Fin 3) * 512 + 1 * r.val = 512 * (t.val % 4) + r.val; omega
  | ⟨2, _⟩ => show win0_0.index t (2 : Fin 3) * 64 + 1 * d.val = d.val; omega

/-- The key block of point `t`: the whole key matrix of head `t / 4`. -/
theorem kblock_apply (c : Dev nD) (t : Fin cfg0.N) (u : Fin 1) (k : Fin 2048) (d : Fin 64) :
    (iblk m c 1 t : Vec F S1x2048x64 .f32) (ix3 u k d) = V m c main_v1 (ix3 (head t) k d) := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * u.val = t.val / 4; have := u.isLt; omega
  | ⟨1, _⟩ => show win0_1.index t (1 : Fin 3) * 2048 + 1 * k.val = k.val; omega
  | ⟨2, _⟩ => show win0_1.index t (2 : Fin 3) * 64 + 1 * d.val = d.val; omega

/-- The value block of point `t`: the whole value matrix of head `t / 4`. -/
theorem vblock_apply (c : Dev nD) (t : Fin cfg0.N) (u : Fin 1) (k : Fin 2048) (d : Fin 64) :
    (iblk m c 2 t : Vec F S1x2048x64 .f32) (ix3 u k d) = V m c main_v2 (ix3 (head t) k d) := by
  obtain ⟨-, -, -, -, -, -, e0, e1, e2, -⟩ := idx_facts t
  unfold iblk
  rw [View.read_apply]
  show V m c main_v2 _ = V m c main_v2 _
  congr 1
  funext a
  apply Fin.ext
  match a with
  | ⟨0, _⟩ => show win0_2.index t (0 : Fin 3) * 1 + 1 * u.val = t.val / 4; have := u.isLt; omega
  | ⟨1, _⟩ => show win0_2.index t (1 : Fin 3) * 2048 + 1 * k.val = k.val; omega
  | ⟨2, _⟩ => show win0_2.index t (2 : Fin 3) * 64 + 1 * d.val = d.val; omega

/-- Two points of one head see the same value block. -/
theorem vblock_same (c : Dev nD) (t t' : Fin cfg0.N) (h : t.val / 4 = t'.val / 4) :
    (iblk m c 2 t : Vec F S1x2048x64 .f32) = iblk m c 2 t' := by
  funext y
  obtain ⟨u, k, d, rfl⟩ : ∃ (u : Fin 1) (k : Fin 2048) (d : Fin 64), y = ix3 u k d := ⟨y 0, y 1, y 2, eq_ix3 y⟩
  refine (vblock_apply m c t u k d).trans ((vblock_apply m c t' u k d).trans ?_).symm
  have : head t' = head t := Fin.ext h.symm
  rw [this]

attribute [local irreducible] outsAt0

/-- At the first point of a head the carried buffer is refreshed with that point's value block. -/
theorem carried_refresh (c : Dev nD) (t : Fin cfg0.N) (h0 : t.val % 4 = 0) :
    (outsAt0 m c t.val t.isLt).2.2 = k0_pay1 (iblk m c 2 t) := by
  rw [outsAt0_A m c t h0]
  dsimp only
  exact carried_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)

/-- At any other point it keeps what the point before left. -/
theorem carried_keep (c : Dev nD) (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]
  dsimp only
  unfold sout0_B_0
  rfl

/-- THE CARRIED BUFFER after point `n` holds the value block of that point, recast: refreshed at the first point of a
    head, kept at the others, whose value block is the same. By induction on the point. -/
theorem carried_eq (c : Dev nD) : ∀ (n : ℕ) (h : n < cfg0.N), (outsAt0 m c n h).2.2 = k0_pay1 (iblk m c 2 ⟨n, h⟩)
  | 0, h => carried_refresh m c ⟨0, h⟩ rfl
  | n + 1, h => by
    by_cases h0 : (n + 1) % 4 = 0
    · exact carried_refresh m c ⟨n + 1, h⟩ h0
    · refine (carried_keep m c ⟨n + 1, h⟩ h0).trans ?_
      show (outsAt0 m c n (Nat.lt_of_succ_lt h)).2.2 = _
      rw [carried_eq c n (Nat.lt_of_succ_lt h)]
      refine congrArg k0_pay1 (vblock_same m c ⟨n, Nat.lt_of_succ_lt h⟩ ⟨n + 1, h⟩ ?_)
      show n / 4 = (n + 1) / 4
      omega

/-- What a point leaves in the weights output: the weights payload of its query and key blocks. -/
theorem outs_weights (c : Dev nD) (t : Fin cfg0.N) :
    (outsAt0 m c t.val t.isLt).2.1 = k0_pay4 (iblk m c 0 t) (iblk m c 1 t) := by
  by_cases h0 : t.val % 4 = 0
  · rw [outsAt0_A m c t h0]
    dsimp only
    exact weights_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)
  · rw [outsAt0_B m c t h0]
    dsimp only
    exact weights_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) _

/-- What a point leaves in the context output: the context payload of its query and key blocks against its own value
    block, recast — at a point that keeps the carried buffer, because the point before left that block there. -/
theorem outs_context (c : Dev nD) (t : Fin cfg0.N) :
    (outsAt0 m c t.val t.isLt).1 = k0_pay3 (iblk m c 0 t) (iblk m c 1 t) (k0_pay1 (iblk m c 2 t)) := by
  by_cases h0 : t.val % 4 = 0
  · rw [outsAt0_A m c t h0]
    dsimp only
    exact context_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)
  · rw [outsAt0_B m c t h0]
    dsimp only
    refine (context_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) _).trans ?_
    rw [carried_eq m c (t.val - 1) (Nat.lt_of_le_of_lt (Nat.sub_le _ _) t.isLt)]
    refine congrArg (k0_pay3 (iblk m c 0 t) (iblk m c 1 t)) (congrArg k0_pay1 (vblock_same m c ⟨t.val - 1, Nat.lt_of_le_of_lt (Nat.sub_le _ _) t.isLt⟩ t ?_))
    show (t.val - 1) / 4 = t.val / 4
    omega

end Cert.KernelIdeal.PointValues

end
-- ==== Proof.RowLaw.lean ====
/-
  One row of a softmax over the extended reals, and the law that joins its two normalizations.

  For a row of scores `s`, the running maximum from `-∞` is `rowMax s`, the shifted exponentials are
  `rowExp s k = exp (s k - rowMax s)`, and their sum is `rowDen s`. One program normalizes by the quotient
  `rowExp s k / rowDen s`, the other by the product with the reciprocal `rowExp s k * (1 / rowDen s)`. On the
  extended reals division has its own corner at a zero denominator (`0 / 0` is `-∞` while `0 * (1 / 0) = 0`),
  so the two agree exactly when `rowDen s ≠ 0`. When every score of a nonempty row is a real number the maximum
  is a real, every shifted exponential is a positive real, and the sum is positive: the two forms agree.
-/
import Idealize.ShloMosaic.PureOps.Ideal
import Idealize.ShloMosaic.PureOps.Ideal.Laws
import Idealize.ShloMosaic.Lib.IdealHost

noncomputable section

namespace Cert.Attn.RowLaw

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem IsReal.sum {ι : Type} (t : Finset ι) (f : ι → EReal) (hf : ∀ i, IsReal (f i)) : IsReal (∑ i ∈ t, f i) := by
  classical
  refine Finset.induction_on t ?_ ?_
  · exact ⟨0, by simp⟩
  · intro a t ha ih
    obtain ⟨r1, h1⟩ := hf a
    obtain ⟨r2, h2⟩ := ih
    exact ⟨r1 + r2, by rw [Finset.sum_insert ha, h1, h2, EReal.coe_add]⟩

/-- A score — a finite sum of products of real entries — is a real. -/
theorem IsReal.dot {ι : Type} [Fintype ι] (a b : ι → EReal) (ha : ∀ d, IsReal (a d)) (hb : ∀ d, IsReal (b d)) :
    IsReal (∑ d, a d * b d) :=
  IsReal.sum _ _ fun d => (ha d).mul (hb d)

/-- The pattern of negative infinity denotes the bottom of the extended reals. -/
theorem ofBits_neg_inf : Ideal.ofBits .f32 0xFF800000#32 = ⊥ := by simp [Ideal.ofBits, Ideal.ieee]

variable {n : ℕ}

/-- The maximum of a row, taken from `-∞`. -/
def rowMax (s : Fin n → EReal) : EReal := (Finset.univ : Finset (Fin n)).fold max ⊥ s

/-- The exponential of a score shifted by its row's maximum. -/
def rowExp (s : Fin n → EReal) (k : Fin n) : EReal := Ideal.exp (s k - rowMax s)

/-- The sum of a row's shifted exponentials. -/
def rowDen (s : Fin n → EReal) : EReal := ∑ k, rowExp s k

/-- The softmax weight as a quotient. -/
def weightQ (s : Fin n → EReal) (k : Fin n) : EReal := Ideal.div (rowExp s k) (rowDen s)

/-- The softmax weight as a product with the reciprocal of the sum. -/
def weightR (s : Fin n → EReal) (k : Fin n) : EReal := rowExp s k * Ideal.div 1 (rowDen s)

theorem exp_nonneg (x : EReal) : 0 ≤ Ideal.exp x := by
  induction x with
  | bot => rw [Ideal.exp_bot]
  | coe r => rw [Ideal.exp_coe]; exact EReal.coe_nonneg.2 (Real.exp_nonneg r)
  | top => rw [Ideal.exp_top]; exact le_top

/-- The maximum of a nonempty row of reals is a real: it is above one entry and below `+∞`. -/
theorem rowMax_real (hn : 0 < n) (s : Fin n → EReal) (hs : ∀ k, IsReal (s k)) : IsReal (rowMax s) := by
  have hbot : ⊥ < rowMax s := by
    unfold rowMax
    rw [Finset.lt_fold_max]
    right
    obtain ⟨r, hr⟩ := hs ⟨0, hn⟩
    exact ⟨⟨0, hn⟩, Finset.mem_univ _, by rw [hr]; exact EReal.bot_lt_coe r⟩
  have htop : rowMax s < ⊤ := by
    unfold rowMax
    rw [Finset.fold_max_lt]
    refine ⟨bot_lt_top, fun k _ => ?_⟩
    obtain ⟨r, hr⟩ := hs k
    rw [hr]; exact EReal.coe_lt_top r
  exact ⟨(rowMax s).toReal, (EReal.coe_toReal htop.ne hbot.ne').symm⟩

/-- Every shifted exponential of a nonempty row of reals is positive. -/
theorem rowExp_pos (hn : 0 < n) (s : Fin n → EReal) (hs : ∀ k, IsReal (s k)) (k : Fin n) : 0 < rowExp s k := by
  obtain ⟨M, hM⟩ := rowMax_real hn s hs
  obtain ⟨r, hr⟩ := hs k
  unfold rowExp
  rw [hM, hr, ← EReal.coe_sub, Ideal.exp_coe]
  exact EReal.coe_pos.2 (Real.exp_pos _)

/-- So their sum is not zero: it is at least one positive term, the others being nonnegative. -/
theorem rowDen_ne_zero (hn : 0 < n) (s : Fin n → EReal) (hs : ∀ k, IsReal (s k)) : rowDen s ≠ 0 := by
  have h1 : rowExp s ⟨0, hn⟩ ≤ rowDen s :=
    Finset.single_le_sum (f := rowExp s) (fun i _ => exp_nonneg _) (Finset.mem_univ _)
  exact (lt_of_lt_of_le (rowExp_pos hn s hs _) h1).ne'

/-- THE LAW: off a zero denominator the product with the reciprocal is the quotient. -/
theorem weightR_eq_weightQ (hn : 0 < n) (s : Fin n → EReal) (hs : ∀ k, IsReal (s k)) (k : Fin n) :
    weightR s k = weightQ s k := by
  have hl := rowDen_ne_zero hn s hs
  unfold weightR weightQ Ideal.div
  rw [if_neg hl, if_neg hl, one_mul]

end Cert.Attn.RowLaw

end
-- ==== Proof.LibColumn.lean ====
/-
  Two layout operations of a keepdims reduction read at an index: a vector `[a]` recast as a column `[a, 1]`, and a
  column `[a, 1]` broadcast along its rows to `[a, b]`. Both read the operand at the row's coordinate.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The body's arithmetic at an index, over the extended reals. The score block is the query block against the key
  block contracted over the head dimension; the weights block is each score row's softmax (maximum from `-∞`,
  shifted exponentials, their sum, the product with the reciprocal of the sum); the context block is the weights
  against the carried value block, contracted over the key rows. A change of float format is the identity here.
-/
import proofs.«104663_j62783831933126_2_alg».proof.Proof.Gen.KernelIdeal.Skeleton
import proofs.«104663_j62783831933126_2_alg».proof.Proof.RowLaw
import proofs.«104663_j62783831933126_2_alg».proof.Proof.LibColumn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open Idealize.ShloMosaic Idealize.ShloMosaic.ValueIdx

namespace Cert.KernelIdeal.Payload

open Cert.KernelIdeal Cert.KernelIdeal.Gen Cert.Attn.RowLaw

/-! ## The two contractions' index maps, coordinate by coordinate -/

theorem qk_lhs_0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem qk_lhs_1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q

theorem qk_rhs_0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

theorem qk_rhs_1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

theorem pv_lhs_0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem pv_lhs_1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q

theorem pv_rhs_0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q

theorem pv_rhs_1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Scores `q · kᵀ`: the left factor of output `(r, c)` at contraction coordinate `d` is `(r, d)`, -/
theorem qk_lhs (r : Fin 512) (c : Fin 2048) (d : Fin 64) :
    dot_S512x64_S2048x64_S512x2048_1_1_0_0_n_n.lhsIdx (ix2 r c) ((contrEquiv1 dot_S512x64_S2048x64_S512x2048_1_1_0_0_n_n 64 rfl rfl).symm d) = (ix2 r d : S512x64.Idx) :=
  funext fun a => Fin.ext (by
    match a with
    | ⟨0, _⟩ => exact qk_lhs_0 _ _
    | ⟨1, _⟩ => exact (qk_lhs_1 _ _).trans (contrEquiv1_symm_val dot_S512x64_S2048x64_S512x2048_1_1_0_0_n_n 64 rfl rfl d))

/-- and the right factor is `(c, d)`: the key block is contracted along its second axis. -/
theorem qk_rhs (r : Fin 512) (c : Fin 2048) (d : Fin 64) :
    dot_S512x64_S2048x64_S512x2048_1_1_0_0_n_n.rhsIdx (ix2 r c) ((contrEquiv1 dot_S512x64_S2048x64_S512x2048_1_1_0_0_n_n 64 rfl rfl).symm d) = (ix2 c d : S2048x64.Idx) :=
  funext fun a => Fin.ext (by
    match a with
    | ⟨0, _⟩ => exact qk_rhs_0 _ _
    | ⟨1, _⟩ => exact (qk_rhs_1 _ _).trans (contrEquiv1_symm_val dot_S512x64_S2048x64_S512x2048_1_1_0_0_n_n 64 rfl rfl d))

/-- Context `w · v`: the left factor of output `(r, e)` at contraction coordinate `k` is `(r, k)`, -/
theorem pv_lhs (r : Fin 512) (e : Fin 64) (k : Fin 2048) :
    dot_S512x2048_S2048x64_S512x64_1_0_0_1_n_n.lhsIdx (ix2 r e) ((contrEquiv1 dot_S512x2048_S2048x64_S512x64_1_0_0_1_n_n 2048 rfl rfl).symm k) = (ix2 r k : S512x2048.Idx) :=
  funext fun a => Fin.ext (by
    match a with
    | ⟨0, _⟩ => exact pv_lhs_0 _ _
    | ⟨1, _⟩ => exact (pv_lhs_1 _ _).trans (contrEquiv1_symm_val dot_S512x2048_S2048x64_S512x64_1_0_0_1_n_n 2048 rfl rfl k))

/-- and the right factor is `(k, e)`. -/
theorem pv_rhs (r : Fin 512) (e : Fin 64) (k : Fin 2048) :
    dot_S512x2048_S2048x64_S512x64_1_0_0_1_n_n.rhsIdx (ix2 r e) ((contrEquiv1 dot_S512x2048_S2048x64_S512x64_1_0_0_1_n_n 2048 rfl rfl).symm k) = (ix2 k e : S2048x64.Idx) :=
  funext fun a => Fin.ext (by
    match a with
    | ⟨0, _⟩ => exact (pv_rhs_0 _ _).trans (contrEquiv1_symm_val dot_S512x2048_S2048x64_S512x64_1_0_0_1_n_n 2048 rfl rfl k)
    | ⟨1, _⟩ => exact pv_rhs_1 _ _)

/-! ## The payloads at an index -/

/-- The score of query row `r` against key row `c`: the sum over the head dimension of the products. -/
theorem scores_apply (x0 : Vec Ideal S1x512x64 .f32) (x1 : Vec Ideal S1x2048x64 .f32) (r : Fin 512) (c : Fin 2048) :
    (matmul (φ₁ := FTy.f32) (φ₂ := FTy.f32) dot_S512x64_S2048x64_S512x2048_1_1_0_0_n_n (some ContractPrecision.fp32) (shapeCast S512x64 x0 shapeCasts_S1x512x64_S512x64) (shapeCast S2048x64 x1 shapeCasts_S1x2048x64_S2048x64) (constant (F := Ideal) S512x2048 FTy.f32 0x00000000#32)) (ix2 r c) = ∑ d : Fin 64, x0 (ix3 (0 : Fin 1) r d) * x1 (ix3 (0 : Fin 1) c d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  rw [qk_lhs, qk_rhs, shapeCast_1ab_ab_apply, shapeCast_1ab_ab_apply]

/-- Inserting the key coordinate `k` on the reduced axis of row `r` gives `(r, k)`. -/
theorem lift_row (r : Fin 512) (k : Fin 2048) : reduces_S512x2048_S512.lift (ix1 r) k = ix2 r k := by
  funext a
  apply Fin.ext
  match a with
  | ⟨0, _⟩ => rfl
  | ⟨1, _⟩ => rfl

/-- A vector exponential read at an index. -/
theorem exp_apply {s : Shape} (v : FVec Ideal s .f32) (i : s.Idx) : exp v i = Ideal.exp (v i) := rfl

/-- THE WEIGHTS: entry `(r, c)` of the weights payload is the softmax weight, in the reciprocal-product form, of
    column `c` in the row of scores of query row `r` against every key row. -/
theorem weights_apply (x0 : Vec Ideal S1x512x64 .f32) (x1 : Vec Ideal S1x2048x64 .f32) (r : Fin 512) (c : Fin 2048) :
    k0_pay2 (F := Ideal) x0 x1 (ix2 r c) = weightR (fun k : Fin 2048 => ∑ d : Fin 64, x0 (ix3 (0 : Fin 1) r d) * x1 (ix3 (0 : Fin 1) k d)) c := by
  unfold k0_pay2
  dsimp only
  rw [mulf_apply, broadcastTo_a1_ab_apply, divf_apply, broadcast_apply, shapeCast_a_a1_apply]
  rw [show (fun k : Fin 2048 => ∑ d : Fin 64, x0 (ix3 (0 : Fin 1) r d) * x1 (ix3 (0 : Fin 1) k d)) = fun k => (matmul (φ₁ := FTy.f32) (φ₂ := FTy.f32) dot_S512x64_S2048x64_S512x2048_1_1_0_0_n_n (some ContractPrecision.fp32) (shapeCast S512x64 x0 shapeCasts_S1x512x64_S512x64) (shapeCast S2048x64 x1 shapeCasts_S1x2048x64_S2048x64) (constant (F := Ideal) S512x2048 FTy.f32 0x00000000#32)) (ix2 r k) from funext fun k => (scores_apply x0 x1 r k).symm]
  generalize (matmul (φ₁ := FTy.f32) (φ₂ := FTy.f32) dot_S512x64_S2048x64_S512x2048_1_1_0_0_n_n (some ContractPrecision.fp32) (shapeCast S512x64 x0 shapeCasts_S1x512x64_S512x64) (shapeCast S2048x64 x1 shapeCasts_S1x2048x64_S2048x64) (constant (F := Ideal) S512x2048 FTy.f32 0x00000000#32)) = sc
  have hφ : FKind.Formats FTy.f32 := .inl rfl
  have hmx : (0xFF800000#32 : BitVec FTy.f32.bits) = FKind.maximumf.neutral FTy.f32 hφ := rfl
  have hsm : (0x00000000#32 : BitVec FTy.f32.bits) = FKind.add.neutral FTy.f32 hφ := rfl
  -- the row's maximum
  have hM : multiReduction (F := Ideal) FKind.maximumf [1] S512 sc 0xFF800000#32 reduces_S512x2048_S512 hφ hmx (ix1 r)
      = rowMax (fun k : Fin 2048 => sc (ix2 r k)) := by
    refine (Ideal.multiReduction_maximumf_single sc _ reduces_S512x2048_S512 hφ hmx (ix1 r)).trans ?_
    unfold rowMax
    rw [Ideal.ofBits_def, ofBits_neg_inf]
    refine congrArg (fun f => Finset.fold max (⊥ : EReal) f Finset.univ) ?_
    funext k
    exact congrArg sc (lift_row r k)
  generalize multiReduction (F := Ideal) FKind.maximumf [1] S512 sc 0xFF800000#32 reduces_S512x2048_S512 hφ hmx = MX at hM ⊢
  -- the shifted exponentials
  have hE : ∀ k : Fin 2048, (exp (subf sc (broadcastTo S512x2048 (shapeCast S512x1 MX shapeCasts_S512_S512x1) broadcasts_S512x1_S512x2048)) : FVec Ideal S512x2048 .f32) (ix2 r k)
      = rowExp (fun k : Fin 2048 => sc (ix2 r k)) k := by
    intro k
    rw [exp_apply, subf_apply, broadcastTo_a1_ab_apply, shapeCast_a_a1_apply, hM]
    rfl
  generalize (exp (subf sc (broadcastTo S512x2048 (shapeCast S512x1 MX shapeCasts_S512_S512x1) broadcasts_S512x1_S512x2048)) : FVec Ideal S512x2048 .f32) = E at hE ⊢
  -- the row's sum
  have hL : multiReduction (F := Ideal) FKind.add [1] S512 E 0x00000000#32 reduces_S512x2048_S512 hφ hsm (ix1 r)
      = rowDen (fun k : Fin 2048 => sc (ix2 r k)) := by
    refine (Ideal.multiReduction_add_single E _ reduces_S512x2048_S512 hφ hsm (ix1 r)).trans ?_
    unfold rowDen
    refine Finset.sum_congr rfl fun k _ => ?_
    exact (congrArg E (lift_row r k)).trans (hE k)
  rw [hL, hE c, Ideal.ofBits_def, Ideal.ofBits_one_f32]
  rfl

/-- The stored weights block is the weights payload with a unit axis in front. -/
theorem weights_block_apply (x0 : Vec Ideal S1x512x64 .f32) (x1 : Vec Ideal S1x2048x64 .f32) (u : Fin 1) (r : Fin 512) (c : Fin 2048) :
    k0_pay4 (F := Ideal) x0 x1 (ix3 u r c) = k0_pay2 (F := Ideal) x0 x1 (ix2 r c) := by
  unfold k0_pay4
  rw [shapeCast_ab_1ab_apply]

/-- The carried block is the value block: recasting to a narrower float format changes nothing here. -/
theorem carried_apply (x2 : Vec Ideal S1x2048x64 .f32) (k : Fin 2048) (e : Fin 64) :
    k0_pay1 (F := Ideal) x2 (ix2 k e) = x2 (ix3 (0 : Fin 1) k e) := by
  unfold k0_pay1
  rw [shapeCast_self]
  show shapeCast S2048x64 x2 shapeCasts_S1x2048x64_S2048x64 (ix2 k e) = _
  rw [shapeCast_1ab_ab_apply]

/-- THE CONTEXT: entry `(r, e)` of the context payload is the sum over the key rows of the weight times the carried
    value entry. -/
theorem context_apply (x0 : Vec Ideal S1x512x64 .f32) (x1 : Vec Ideal S1x2048x64 .f32) (xs : Vec Ideal S2048x64 .bf16)
    (u : Fin 1) (r : Fin 512) (e : Fin 64) :
    k0_pay3 (F := Ideal) x0 x1 xs (ix3 u r e) = ∑ k : Fin 2048, k0_pay2 (F := Ideal) x0 x1 (ix2 r k) * xs (ix2 k e) := by
  unfold k0_pay3
  rw [shapeCast_ab_1ab_apply]
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  rw [pv_lhs, pv_rhs]
  rfl

end Cert.KernelIdeal.Payload

end
-- ==== Proof.Spec.lean ====
/-
  Dot-product attention without scaling, as one function of the three argument arrays over the extended reals.

  For batch `b`, head `h` and query row `q`, the row of scores is `s k = ∑ d, Q[b,h,q,d] · K[b,h,k,d]`; the weights
  are the row's softmax (shifted by the row's maximum, normalized by the product with the reciprocal of the sum of
  the shifted exponentials), and the context is `∑ k, w[b,h,q,k] · V[b,h,k,d]`.
-/
import proofs.«104663_j62783831933126_2_alg».proof.Proof.RowLaw
import Idealize.ShloMosaic.Lib.ValueIdx

noncomputable section

namespace Cert.Attn.Spec

open Idealize.ShloMosaic Idealize.ShloMosaic.ValueIdx Cert.Attn.RowLaw

/-- An argument array: batch, head, row, head dimension. -/
abbrev Arg := (⟨4, ![2, 16, 2048, 64]⟩ : Shape).Idx → EReal

/-- The scores of query row `q` of head `(b, h)` against every key row. -/
def scoreRow (Q K : Arg) (b : Fin 2) (h : Fin 16) (q : Fin 2048) : Fin 2048 → EReal :=
  fun k => ∑ d : Fin 64, Q (ix4 b h q d) * K (ix4 b h k d)

/-- The attention weights: the softmax of each row of scores. -/
def weights (Q K : Arg) : (⟨4, ![2, 16, 2048, 2048]⟩ : Shape).Idx → EReal :=
  fun i => weightR (scoreRow Q K (i 0) (i 1) (i 2)) (i 3)

/-- The context vectors: each row of weights against the value rows. -/
def context (Q K V : Arg) : (⟨4, ![2, 16, 2048, 64]⟩ : Shape).Idx → EReal :=
  fun i => ∑ k : Fin 2048, weights Q K (ix4 (i 0) (i 1) (i 2) k) * V (ix4 (i 0) (i 1) k (i 3))

end Cert.Attn.Spec

end
-- ==== Proof.Arrays.lean ====
/-
  From blocks to arrays, and through the reshapes. The region works on the arguments flattened to 32 heads
  (`[2, 16, …] → [32, …]`, head `16 b + h`). Point `t` writes rows `512 (t % 4) ..` of head `t / 4` of both outputs, and
  what it writes is the restriction to that block of ONE function of the flattened arguments: the row softmax of the
  scores, and the weights against the head's value matrix. The blocks of the 128 points tile both output arrays, so
  each output array ends holding that function; reshaping back to `[2, 16, …]` gives the attention weights and the
  context of the unflattened arguments.
-/
import proofs.«104663_j62783831933126_2_alg».proof.Proof.PointValues
import proofs.«104663_j62783831933126_2_alg».proof.Proof.Payload
import proofs.«104663_j62783831933126_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.PointValues Cert.KernelIdeal.Payload
open Cert.Attn.RowLaw Cert.Attn.Spec

attribute [local irreducible] outsAt0

variable (m : (ℓ : Loc nD τ sig) → Buf (Elt Ideal) ℓ) (ρ : Dev nD → PrngReg)

/-! ## The function of the flattened arguments -/

/-- The scores of query row `q` of flattened head `g` against every key row. -/
def scoreRowF (Qf Kf : S32x2048x64.Idx → EReal) (g : Fin 32) (q : Fin 2048) : Fin 2048 → EReal :=
  fun k => ∑ d : Fin 64, Qf (ix3 g q d) * Kf (ix3 g k d)

/-- The weights of the flattened arguments. -/
def weightsF (Qf Kf : S32x2048x64.Idx → EReal) : S32x2048x2048.Idx → EReal :=
  fun j => weightR (scoreRowF Qf Kf (j 0) (j 1)) (j 2)

/-- The context of the flattened arguments. -/
def contextF (Qf Kf Vf : S32x2048x64.Idx → EReal) : S32x2048x64.Idx → EReal :=
  fun j => ∑ k : Fin 2048, weightsF Qf Kf (ix3 (j 0) (j 1) k) * Vf (ix3 (j 0) k (j 2))

/-! ## What a point writes back -/

/-- The weights payload of a point's blocks is the weights of the flattened arguments at the point's head and rows. -/
theorem tile_weights (c : Dev nD) (t : Fin cfg0.N) (r : Fin 512) (k : Fin 2048) :
    k0_pay2 (F := Ideal) (iblk m c 0 t) (iblk m c 1 t) (ix2 r k)
      = weightsF (V m c main_v0) (V m c main_v1) (ix3 (head t) (row t r) k) := by
  refine (weights_apply (iblk m c 0 t) (iblk m c 1 t) r k).trans ?_
  show weightR _ k = weightR (scoreRowF (V m c main_v0) (V m c main_v1) (head t) (row t r)) k
  refine congrArg (fun s => weightR s k) (funext fun k' => Finset.sum_congr rfl fun d _ => ?_)
  rw [qblock_apply m c t 0 r d, kblock_apply m c t 0 k' d]

/-- Where entry `(u, r, k)` of point `t`'s weights block sits in the weights array. -/
theorem emb_weights (t : Fin cfg0.N) (u : Fin 1) (r : Fin 512) (k : Fin 2048) :
    ((cfg0.win 4).blk t).view.emb (ix3 u r k) = ix3 (head t) (row t r) k := by
  obtain ⟨-, -, -, -, -, -, -, -, -, -, -, -, e0, e1, e2⟩ := idx_facts t
  funext a
  apply Fin.ext
  match a with
  | ⟨0, _⟩ => show win0_4.index t (0 : Fin 3) * 1 + 1 * u.val = t.val / 4; have := u.isLt; omega
  | ⟨1, _⟩ => show win0_4.index t (1 : Fin 3) * 512 + 1 * r.val = 512 * (t.val % 4) + r.val; omega
  | ⟨2, _⟩ => show win0_4.index t (2 : Fin 3) * 2048 + 1 * k.val = k.val; omega

/-- Where entry `(u, r, e)` of point `t`'s context block sits in the context array. -/
theorem emb_context (t : Fin cfg0.N) (u : Fin 1) (r : Fin 512) (e : Fin 64) :
    ((cfg0.win 3).blk t).view.emb (ix3 u r e) = ix3 (head t) (row t r) e := by
  obtain ⟨-, -, -, -, -, -, -, -, -, e0, e1, e2, -⟩ := idx_facts t
  funext a
  apply Fin.ext
  match a with
  | ⟨0, _⟩ => show win0_3.index t (0 : Fin 3) * 1 + 1 * u.val = t.val / 4; have := u.isLt; omega
  | ⟨1, _⟩ => show win0_3.index t (1 : Fin 3) * 512 + 1 * r.val = 512 * (t.val % 4) + r.val; omega
  | ⟨2, _⟩ => show win0_3.index t (2 : Fin 3) * 64 + 1 * e.val = e.val; omega

/-- WHAT POINT `t` WRITES BACK to the weights array is block `t` of the weights of the flattened arguments. -/
theorem flushed_weights (c : Dev nD) (t : Fin cfg0.N) :
    (dats m 0 c).flushed 4 t
      = ((cfg0.win 4).blk t).view.read (Elt Ideal) (weightsF (V m c main_v0) (V m c main_v1)) := by
  show (cfg0.win 4).cut (grid0.coords t) ((dats m 0 c).after 4 t) = _
  rw [after0_4, outs_weights m c t]
  funext y
  obtain ⟨u, r, k, rfl⟩ : ∃ (u : Fin 1) (r : Fin 512) (k : Fin 2048), y = ix3 u r k := ⟨y 0, y 1, y 2, eq_ix3 y⟩
  rw [View.read_apply, emb_weights]
  show k0_pay4 (F := Ideal) (iblk m c 0 t) (iblk m c 1 t) (ix3 u r k) = _
  exact (weights_block_apply (iblk m c 0 t) (iblk m c 1 t) u r k).trans (tile_weights m c t r k)

/-- WHAT POINT `t` WRITES BACK to the context array is block `t` of the context of the flattened arguments. -/
theorem flushed_context (c : Dev nD) (t : Fin cfg0.N) :
    (dats m 0 c).flushed 3 t
      = ((cfg0.win 3).blk t).view.read (Elt Ideal) (contextF (V m c main_v0) (V m c main_v1) (V m c main_v2)) := by
  show (cfg0.win 3).cut (grid0.coords t) ((dats m 0 c).after 3 t) = _
  rw [after0_3, outs_context m c t]
  funext y
  obtain ⟨u, r, e, rfl⟩ : ∃ (u : Fin 1) (r : Fin 512) (e : Fin 64), y = ix3 u r e := ⟨y 0, y 1, y 2, eq_ix3 y⟩
  rw [View.read_apply, emb_context]
  show k0_pay3 (F := Ideal) (iblk m c 0 t) (iblk m c 1 t) (k0_pay1 (iblk m c 2 t)) (ix3 u r e) = _
  refine (context_apply (iblk m c 0 t) (iblk m c 1 t) (k0_pay1 (iblk m c 2 t)) u r e).trans ?_
  show _ = ∑ k : Fin 2048, weightsF (V m c main_v0) (V m c main_v1) (ix3 (head t) (row t r) k) * V m c main_v2 (ix3 (head t) k e)
  refine Finset.sum_congr rfl fun k _ => ?_
  rw [tile_weights m c t r k, carried_apply (iblk m c 2 t) k e, vblock_apply m c t 0 k e]

/-! ## The blocks tile the arrays -/

theorem mem_blk_weights (t : Fin cfg0.N) (i : S32x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v3_1).slice (win0_4.rect t)).set ↔ _
  rw [View.set_slice_whole, Rect.mem_set_unit]
  exact Iff.rfl

theorem mem_blk_context (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3_0).slice (win0_3.rect t)).set ↔ _
  rw [View.set_slice_whole, Rect.mem_set_unit]
  exact Iff.rfl

/-- Row `s` of head `g` is written by point `4 g + s / 512`. -/
theorem cover_weights (i : S32x2048x2048.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 2048 := (i 2).isLt
  have hN := hN
  refine ⟨⟨4 * (i 0).val + (i 1).val / 512, by omega⟩, flush0_4 _, ?_⟩
  rw [mem_blk_weights]
  obtain ⟨-, -, -, -, -, -, -, -, -, -, -, -, e0, e1, e2⟩ := idx_facts ⟨4 * (i 0).val + (i 1).val / 512, by omega⟩
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 512 ≤ (i 1).val ∧ (i 1).val < win0_4.index _ (1 : Fin 3) * 512 + 512; rw [e1]; dsimp only; omega
  | ⟨2, _⟩ => show win0_4.index _ (2 : Fin 3) * 2048 ≤ (i 2).val ∧ (i 2).val < win0_4.index _ (2 : Fin 3) * 2048 + 2048; rw [e2]; omega

theorem cover_context (i : S32x2048x64.Idx) :
    ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 64 := (i 2).isLt
  have hN := hN
  refine ⟨⟨4 * (i 0).val + (i 1).val / 512, by omega⟩, flush0_3 _, ?_⟩
  rw [mem_blk_context]
  obtain ⟨-, -, -, -, -, -, -, -, -, e0, e1, e2, -⟩ := idx_facts ⟨4 * (i 0).val + (i 1).val / 512, by omega⟩
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 512 ≤ (i 1).val ∧ (i 1).val < win0_3.index _ (1 : Fin 3) * 512 + 512; rw [e1]; dsimp only; omega
  | ⟨2, _⟩ => show win0_3.index _ (2 : Fin 3) * 64 ≤ (i 2).val ∧ (i 2).val < win0_3.index _ (2 : Fin 3) * 64 + 64; rw [e2]; omega

/-- THE WEIGHTS ARRAY after the run. -/
theorem final_weights (c : Dev nD) :
    (dats m 0 c).arrAt 4 cfg0.N = weightsF (V m c main_v0) (V m c main_v1) :=
  (dats m 0 c).arrAt_eq_of_cover 4 (weightsF (V m c main_v0) (V m c main_v1)) (fun t _ => flushed_weights m c t) cover_weights

/-- THE CONTEXT ARRAY after the run. -/
theorem final_context (c : Dev nD) :
    (dats m 0 c).arrAt 3 cfg0.N = contextF (V m c main_v0) (V m c main_v1) (V m c main_v2) :=
  (dats m 0 c).arrAt_eq_of_cover 3 (contextF (V m c main_v0) (V m c main_v1) (V m c main_v2)) (fun t _ => flushed_context m c t) cover_context

end Cert.KernelIdeal.Arrays

end
-- ==== Proof.KernelRun.lean ====
/-
  The kernel's program as a whole: the three reshapes that flatten batch and head, the region, the two reshapes that
  unflatten the results. Read at an index a reshape moves nothing (row-major position `((b 16 + h) 2048 + s) n + d` on
  both sides), so the results are the attention weights and the context of the unflattened arguments.
-/
import proofs.«104663_j62783831933126_2_alg».proof.Proof.Arrays

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Arrays
open Cert.Attn.RowLaw Cert.Attn.Spec

variable (m : (ℓ : Loc nD τ sig) → Buf (Elt Ideal) ℓ) (ρ : Dev nD → PrngReg)

/-! ## The reshapes at an index -/

/-- The flattened head of batch `b`, head `h`. -/
def flatHead (b : Fin 2) (h : Fin 16) : Fin 32 := ⟨16 * b.val + h.val, by have := b.isLt; have := h.isLt; omega⟩

/-- Flattening batch and head: entry `(16 b + h, s, d)` of the flattened array is entry `(b, h, s, d)`. -/
theorem flatten_apply (X : S2x16x2048x64.Idx → EReal) (b : Fin 2) (h : Fin 16) (s : Fin 2048) (d : Fin 64) :
    shapeCast S32x2048x64 X shapeCasts_S2x16x2048x64_S32x2048x64 (ix3 (flatHead b h) s d) = X (ix4 b h s d) :=
  shapeCast_apply X _ _ _ (by
    rw [Shape.rowMajor_val_four, Shape.rowMajor_val_three]
    show ((b.val * 16 + h.val) * 2048 + s.val) * 64 + d.val = ((16 * b.val + h.val) * 2048 + s.val) * 64 + d.val
    omega)

/-- Unflattening, for the context's shape, -/
theorem unflatten_apply (Y : S32x2048x64.Idx → EReal) (b : Fin 2) (h : Fin 16) (s : Fin 2048) (d : Fin 64) :
    shapeCast S2x16x2048x64 Y shapeCasts_S32x2048x64_S2x16x2048x64 (ix4 b h s d) = Y (ix3 (flatHead b h) s d) :=
  shapeCast_apply Y _ _ _ (by
    rw [Shape.rowMajor_val_four, Shape.rowMajor_val_three]
    show ((16 * b.val + h.val) * 2048 + s.val) * 64 + d.val = ((b.val * 16 + h.val) * 2048 + s.val) * 64 + d.val
    omega)

/-- and for the weights' shape. -/
theorem unflattenW_apply (Y : S32x2048x2048.Idx → EReal) (b : Fin 2) (h : Fin 16) (s k : Fin 2048) :
    shapeCast S2x16x2048x2048 Y shapeCasts_S32x2048x2048_S2x16x2048x2048 (ix4 b h s k) = Y (ix3 (flatHead b h) s k) :=
  shapeCast_apply Y _ _ _ (by
    rw [Shape.rowMajor_val_four, Shape.rowMajor_val_three]
    show ((16 * b.val + h.val) * 2048 + s.val) * 2048 + k.val = ((b.val * 16 + h.val) * 2048 + s.val) * 2048 + k.val
    omega)

/-- The weights of the flattened arguments, unflattened, are the weights of the arguments. -/
theorem weights_unflatten (Q K : Arg) :
    shapeCast S2x16x2048x2048 (weightsF (shapeCast S32x2048x64 Q shapeCasts_S2x16x2048x64_S32x2048x64)
      (shapeCast S32x2048x64 K shapeCasts_S2x16x2048x64_S32x2048x64)) shapeCasts_S32x2048x2048_S2x16x2048x2048 = weights Q K := by
  funext i
  obtain ⟨b, h, q, k, rfl⟩ : ∃ (b : Fin 2) (h : Fin 16) (q k : Fin 2048), i = ix4 b h q k := ⟨i 0, i 1, i 2, i 3, eq_ix4 i⟩
  rw [unflattenW_apply]
  show weightR (scoreRowF _ _ (flatHead b h) q) k = weightR (scoreRow Q K b h q) k
  refine congrArg (fun s => weightR s k) (funext fun k' => Finset.sum_congr rfl fun d _ => ?_)
  rw [flatten_apply, flatten_apply]

/-- The context of the flattened arguments, unflattened, is the context of the arguments. -/
theorem context_unflatten (Q K V : Arg) :
    shapeCast S2x16x2048x64 (contextF (shapeCast S32x2048x64 Q shapeCasts_S2x16x2048x64_S32x2048x64)
      (shapeCast S32x2048x64 K shapeCasts_S2x16x2048x64_S32x2048x64)
      (shapeCast S32x2048x64 V shapeCasts_S2x16x2048x64_S32x2048x64)) shapeCasts_S32x2048x64_S2x16x2048x64 = context Q K V := by
  funext i
  obtain ⟨b, h, q, e, rfl⟩ : ∃ (b : Fin 2) (h : Fin 16) (q : Fin 2048) (e : Fin 64), i = ix4 b h q e := ⟨i 0, i 1, i 2, i 3, eq_ix4 i⟩
  rw [unflatten_apply]
  show (∑ k : Fin 2048, weightsF _ _ (ix3 (flatHead b h) q k) * shapeCast S32x2048x64 V shapeCasts_S2x16x2048x64_S32x2048x64 (ix3 (flatHead b h) k e))
    = ∑ k : Fin 2048, weights Q K (ix4 b h q k) * V (ix4 b h k e)
  refine Finset.sum_congr rfl fun k _ => ?_
  rw [flatten_apply, ← weights_unflatten Q K, unflattenW_apply]

/-! ## Around the region -/

/-- The region finds the query flattened, -/
theorem V_flat0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

/-- the key flattened, -/
theorem V_flat1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl

/-- and the value flattened. -/
theorem V_flat2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-- After the region the weights array is unflattened into the second result: the attention weights of the arguments. -/
theorem tail_weights (c : Dev nD) : Pipeline.afterTail₀ cfgs (dats m) 0 (V0 m) [hostOps1] c main_v5
    = weights (m ((c : Thread nD τ).loc main_arg0)) (m ((c : Thread nD τ).loc main_arg1)) := by
  have e : Pipeline.withArrays (cfgs 0).spec c (V0 m c) (fun w => (dats m 0 c).arrAt w (cfgs 0).N) (Proc.devRef .tc main_v3_1) = weightsF (V m c main_v0) (V m c main_v1) :=
    (Pipeline.withArrays_arr spec0 launch0.win.arr_inj c _ _ 4).trans (final_weights m c)
  unfold Pipeline.afterTail₀
  show StableHlo.after hostOps1 _ (Proc.devRef .tc main_v5) = _
  after_results
  refine (show _ = shapeCast S2x16x2048x2048 (Pipeline.withArrays (cfgs 0).spec c (V0 m c) (fun w => (dats m 0 c).arrAt w (cfgs 0).N) (Proc.devRef .tc main_v3_1)) shapeCasts_S32x2048x2048_S2x16x2048x2048 from rfl).trans ?_
  rw [e, V_flat0, V_flat1]
  exact weights_unflatten _ _

/-- and the context array into the first result: the context of the arguments. -/
theorem tail_context (c : Dev nD) : Pipeline.afterTail₀ cfgs (dats m) 0 (V0 m) [hostOps1] c main_v4
    = context (m ((c : Thread nD τ).loc main_arg0)) (m ((c : Thread nD τ).loc main_arg1)) (m ((c : Thread nD τ).loc main_arg2)) := by
  have e : Pipeline.withArrays (cfgs 0).spec c (V0 m c) (fun w => (dats m 0 c).arrAt w (cfgs 0).N) (Proc.devRef .tc main_v3_0) = contextF (V m c main_v0) (V m c main_v1) (V m c main_v2) :=
    (Pipeline.withArrays_arr spec0 launch0.win.arr_inj c _ _ 3).trans (final_context m c)
  unfold Pipeline.afterTail₀
  show StableHlo.after hostOps1 _ (Proc.devRef .tc main_v4) = _
  after_results
  refine (show _ = shapeCast S2x16x2048x64 (Pipeline.withArrays (cfgs 0).spec c (V0 m c) (fun w => (dats m 0 c).arrAt w (cfgs 0).N) (Proc.devRef .tc main_v3_0)) shapeCasts_S32x2048x64_S2x16x2048x64 from rfl).trans ?_
  rw [e, V_flat0, V_flat1, V_flat2]
  exact context_unflatten _ _ _

/-! ## The run, read -/

/-- Every weakly fair execution of the kernel's program terminates with its first result at the context and its second
    at the attention weights of the argument arrays, the arguments unchanged. -/
theorem run : θ_run defs (onTc (τ := τ) (main (F := Ideal))) ⟨m, fun _ => 0, ρ⟩ fun r => ∀ c : Dev nD,
      r.2.mem ((c.tc : Thread nD τ).loc main_v4)
        = context (m ((c.tc : Thread nD τ).loc main_arg0)) (m ((c.tc : Thread nD τ).loc main_arg1)) (m ((c.tc : Thread nD τ).loc main_arg2))
      ∧ r.2.mem ((c.tc : Thread nD τ).loc main_v5)
        = weights (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v4 (Pipeline.mem_restRefs_of main_v4 (by decide) (by decide))).trans (tail_context m c),
      ((h c).2 main_v5 (Pipeline.mem_restRefs_of main_v5 (by decide) (by decide))).trans (tail_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference program read as mathematics: its attention weights are the row softmax of the scores, and its
  context is the weights against the value rows.

  Each stage of the reference is read at a coordinate index (batch, head, query row, key row or head dimension):
  the first contraction is the score, the reduction by maximum from negative infinity is the row's maximum (the
  extra maximum with negative infinity changes nothing), the exponential of the shifted score is the row's shifted
  exponential, the sum from zero is the row's denominator, and the quotient is the quotient-form weight. On real
  inputs the quotient form is the reciprocal-product form, which is how the specification states the weights.
-/
import proofs.«104663_j62783831933126_2_alg».proof.Proof.Gen.ReferenceIdeal.Read
import proofs.«104663_j62783831933126_2_alg».proof.Proof.Spec
import Idealize.ShloMosaic.Lib.IdealHost
import Idealize.ShloMosaic.PureOps.Ideal.Laws
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read
open Cert.Attn.RowLaw Cert.Attn.Spec

/-- The first contraction at (b, h, q, k) is the score of query row q against key row k. -/
theorem ref_scores (Q K : Arg) (b : Fin 2) (h : Fin 16) (q k : Fin 2048) :
    val_main_v0 (F := Ideal) Q K (ix4 b h q k) = scoreRow Q K b h q k := by
  rw [val_main_v0_apply]
  unfold scoreRow
  refine Finset.sum_congr rfl fun d _ => ?_
  have e1 : lidx_main_v0 (ix4 b h q k) d = ix4 b h q d := funext fun a => Fin.ext (by
    match a with | ⟨0, _⟩ => rfl | ⟨1, _⟩ => rfl | ⟨2, _⟩ => rfl | ⟨3, _⟩ => rfl)
  have e2 : ridx_main_v0 (ix4 b h q k) d = ix4 b h k d := funext fun a => Fin.ext (by
    match a with | ⟨0, _⟩ => rfl | ⟨1, _⟩ => rfl | ⟨2, _⟩ => rfl | ⟨3, _⟩ => rfl)
  rw [e1, e2]

/-- The reduction by maximum from negative infinity at (b, h, q) is the row's maximum. -/
theorem ref_max (Q K : Arg) (b : Fin 2) (h : Fin 16) (q : Fin 2048) :
    val_main_v1 (F := Ideal) Q K (ix3 b h q) = rowMax (scoreRow Q K b h q) := by
  have hr : S2x16x2048x2048.Reduces [3] S2x16x2048 := by decide
  unfold val_main_v1
  refine (Host.reduce_eq_fold_single _ _ _ reducesTo_S2x16x2048x2048_S2x16x2048_d3 hr h_S_ _).trans ?_
  have hfun : (val_main_v0 (F := Ideal) Q K ∘ hr.lift (ix3 b h q)) = scoreRow Q K b h q := by
    funext k
    have e : hr.lift (ix3 b h q) k = ix4 b h q k := funext fun a => Fin.ext (by
      match a with | ⟨0, _⟩ => rfl | ⟨1, _⟩ => rfl | ⟨2, _⟩ => rfl | ⟨3, _⟩ => rfl)
    show val_main_v0 (F := Ideal) Q K (hr.lift (ix3 b h q) k) = _
    rw [e]
    exact ref_scores Q K b h q k
  rw [hfun, val_main_cst_apply]
  show Finset.univ.fold max (Ideal.ofBits .f32 0xFF800000#32) (scoreRow Q K b h q) = _
  rw [ofBits_neg_inf]
  rfl

/-- The maximum the reference subtracts, read at (b, h, q, k): the row's maximum. -/
theorem ref_shift (Q K : Arg) (b : Fin 2) (h : Fin 16) (q k : Fin 2048) :
    val_main_v5 (F := Ideal) Q K (ix4 b h q k) = rowMax (scoreRow Q K b h q) := by
  rw [val_main_v5_apply, val_main_v4_apply]
  have e : idx_main_v4 (idx_main_v5 (ix4 b h q k)) = ix3 b h q := funext fun a => Fin.ext (by
    match a with | ⟨0, _⟩ => rfl | ⟨1, _⟩ => rfl | ⟨2, _⟩ => rfl)
  rw [e, val_main_v3_apply, val_main_v2_apply, val_main_cst_0_apply, ref_max]
  show max (Ideal.ofBits .f32 0xFF800000#32) _ = _
  rw [ofBits_neg_inf]
  exact max_eq_right bot_le

/-- The exponential stage at (b, h, q, k) is the row's shifted exponential. -/
theorem ref_exp (Q K : Arg) (b : Fin 2) (h : Fin 16) (q k : Fin 2048) :
    val_main_v7 (F := Ideal) Q K (ix4 b h q k) = rowExp (scoreRow Q K b h q) k := by
  rw [val_main_v7_apply, val_main_v6_apply, ref_scores, ref_shift]
  rfl

/-- The sum from zero at (b, h, q) is the row's denominator. -/
theorem ref_den (Q K : Arg) (b : Fin 2) (h : Fin 16) (q : Fin 2048) :
    val_main_v8 (F := Ideal) Q K (ix3 b h q) = rowDen (scoreRow Q K b h q) := by
  rw [val_main_v8_apply, val_main_cst_1_apply]
  show Ideal.ofBits .f32 0x00000000#32 + _ = _
  rw [Ideal.ofBits_zero_f32, zero_add]
  unfold rowDen
  refine Finset.sum_congr rfl fun k _ => ?_
  have e : idx_main_v8 (ix3 b h q) k = ix4 b h q k := funext fun a => Fin.ext (by
    match a with | ⟨0, _⟩ => rfl | ⟨1, _⟩ => rfl | ⟨2, _⟩ => rfl | ⟨3, _⟩ => rfl)
  rw [e]
  exact ref_exp Q K b h q k

/-- The quotient stage at (b, h, q, k) is the quotient-form weight. -/
theorem ref_weightQ (Q K : Arg) (b : Fin 2) (h : Fin 16) (q k : Fin 2048) :
    val_main_v11 (F := Ideal) Q K (ix4 b h q k) = weightQ (scoreRow Q K b h q) k := by
  rw [val_main_v11_apply, ref_exp, val_main_v10_apply, val_main_v9_apply]
  have e : idx_main_v9 (idx_main_v10 (ix4 b h q k)) = ix3 b h q := funext fun a => Fin.ext (by
    match a with | ⟨0, _⟩ => rfl | ⟨1, _⟩ => rfl | ⟨2, _⟩ => rfl)
  rw [e, ref_den]
  rfl

/-- Every score of real inputs is a real. -/
theorem score_real (Q K : Arg) (hQ : ∀ i, IsReal (Q i)) (hK : ∀ i, IsReal (K i)) (b : Fin 2) (h : Fin 16)
    (q k : Fin 2048) : IsReal (scoreRow Q K b h q k) :=
  IsReal.dot _ _ (fun d => hQ _) (fun d => hK _)

/-- On real inputs the reference's weights are the specification's. -/
theorem ref_weights (Q K : Arg) (hQ : ∀ i, IsReal (Q i)) (hK : ∀ i, IsReal (K i)) :
    Cert.ReferenceIdeal.Read.val_main_v11 (F := Ideal) Q K = weights Q K := by
  funext i
  obtain ⟨b, h, q, k, rfl⟩ : ∃ (b : Fin 2) (h : Fin 16) (q k : Fin 2048), i = ix4 b h q k :=
    ⟨i 0, i 1, i 2, i 3, eq_ix4 i⟩
  rw [ref_weightQ]
  show _ = weightR (scoreRow Q K b h q) k
  exact (weightR_eq_weightQ (by decide) _ (fun k' => score_real Q K hQ hK b h q k') k).symm

/-- On real inputs the reference's context is the specification's. -/
theorem ref_context (Q K V : Arg) (hQ : ∀ i, IsReal (Q i)) (hK : ∀ i, IsReal (K i)) :
    Cert.ReferenceIdeal.Read.val_main_v12 (F := Ideal) Q K V = context Q K V := by
  funext i
  obtain ⟨b, h, q, d, rfl⟩ : ∃ (b : Fin 2) (h : Fin 16) (q : Fin 2048) (d : Fin 64), i = ix4 b h q d :=
    ⟨i 0, i 1, i 2, i 3, eq_ix4 i⟩
  rw [val_main_v12_apply, ref_weights Q K hQ hK]
  show _ = ∑ k : Fin 2048, weights Q K (ix4 b h q k) * V (ix4 b h k d)
  refine Finset.sum_congr rfl fun k _ => ?_
  have e1 : lidx_main_v12 (ix4 b h q d) k = ix4 b h q k := funext fun a => Fin.ext (by
    match a with | ⟨0, _⟩ => rfl | ⟨1, _⟩ => rfl | ⟨2, _⟩ => rfl | ⟨3, _⟩ => rfl)
  have e2 : ridx_main_v12 (ix4 b h q d) k = ix4 b h k d := funext fun a => Fin.ext (by
    match a with | ⟨0, _⟩ => rfl | ⟨1, _⟩ => rfl | ⟨2, _⟩ => rfl | ⟨3, _⟩ => rfl)
  rw [e1, e2]

end Cert.ReferenceIdeal.RefValue

end
-- ==== Proof.Finite.lean ====
/-
  The precondition read back: when the test that every entry of the three argument arrays has absolute value
  below positive infinity comes out true, every entry is a real number.

  The test is the conjunction of three conjunctions over all entries of the bit "the absolute value max x (-x)
  is below +∞". A conjunction of one-bit words that is 1 had 1 at every entry; and an extended real with
  max x (-x) < +∞ is neither -∞ nor +∞.
-/
import proofs.«104663_j62783831933126_2_alg».proof.Defs
import proofs.«104663_j62783831933126_2_alg».proof.Proof.Gen.Pre_finite_inputs
import proofs.«104663_j62783831933126_2_alg».proof.Proof.RowLaw
import Idealize.ShloMosaic.Lib.ReduceAll
import Idealize.ShloMosaic.Lib.ValueIdx

namespace Cert.Attn.Finite

open Idealize.ShloMosaic Cert.Attn.RowLaw

/-- The pattern of positive infinity denotes the top of the extended reals. -/
theorem ofBits_pos_inf : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x with
  | bot => simp at h
  | coe r => exact ⟨r, rfl⟩
  | top => simp at h

/-- The bit "absolute value below the pattern of +∞", when 1, says the entry is a real number. -/
theorem isReal_of_bit (x : EReal)
    (h : Ideal.cmp .olt (max x (-x)) (Ideal.ofBits .f32 0x7F800000#32) = 1#1) : IsReal x := by
  rw [ofBits_pos_inf] at h
  refine isReal_of_abs_lt_top x ?_
  by_contra hn
  simp [Ideal.cmp, hn] at h

/-- The scalar shape has one index. -/
instance subsingletonScalarIdx : Subsingleton Cert.Pre_finite_inputs.S_.Idx := ⟨fun a b => funext fun d => d.elim0⟩

/-- When the finiteness test of the three argument arrays is all ones, every entry of each is a real number. -/
theorem finite_of_pre [Cert.Pre_finite_inputs.Facts] (x0 x1 x2 : (⟨4, ![2, 16, 2048, 64]⟩ : Shape).Idx → EReal)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  change IntOp.andi (IntOp.andi _ _) _ = 1#1 at h0
  rw [IntOp.andi_eq_one, IntOp.andi_eq_one] at h0
  obtain ⟨⟨ha, hb⟩, hc⟩ := h0
  refine ⟨fun i => ?_, fun i => ?_, fun i => ?_⟩
  · exact isReal_of_bit (x0 i) (Host.reduce_andi_all _ _ _ _ _ ha i)
  · exact isReal_of_bit (x1 i) (Host.reduce_andi_all _ _ _ _ _ hb i)
  · exact isReal_of_bit (x2 i) (Host.reduce_andi_all _ _ _ _ _ hc i)

end Cert.Attn.Finite
-- ==== Proof.lean ====
/-
  Unscaled dot-product attention returning the context and the attention weights: a tiled kernel against its plain
  reference, equal over the extended reals for finite inputs.

  Both programs compute, for batch `b`, head `h` and query row `q`, the scores `s k = ∑ d, Q[b,h,q,d] · K[b,h,k,d]`, the
  row's maximum `m` from `-∞`, the shifted exponentials `p k = exp (s k - m)`, their sum `l`, the weights, and the
  context `∑ k, w k · V[b,h,k,d]`. They differ in three ways, none of which matters here. The kernel flattens batch and
  head and works on tiles of 512 query rows against the whole key and value matrices of a head; tiles are
  restrictions of one whole-array function and tile the arrays. It keeps the value matrix of the current head in a
  buffer carried across the four tiles of that head, recast to a narrower float format, which is the identity here.
  And it normalizes by `p k · (1 / l)` where the reference divides `p k / l`: on the extended reals the two agree
  exactly when `l ≠ 0` (`0 / 0` is `-∞` while `0 · (1 / 0) = 0`), and for finite query and key every score is a real,
  the maximum is attained and real, every `p k` is a positive real, so `l > 0`. That is the one place the
  precondition is used.

  The frames of the two kernel programs and the reference's run and stage-by-stage reading are generated modules,
  imported; the rest is in the modules under Proof/.
-/
import proofs.«104663_j62783831933126_2_alg».proof.Defs
import proofs.«104663_j62783831933126_2_alg».proof.Proof.Gen.Kernel
import proofs.«104663_j62783831933126_2_alg».proof.Proof.Gen.Kernel.Skeleton
import proofs.«104663_j62783831933126_2_alg».proof.Proof.Gen.Kernel.Launch
import proofs.«104663_j62783831933126_2_alg».proof.Proof.Gen.Kernel.Points
import proofs.«104663_j62783831933126_2_alg».proof.Proof.Gen.Kernel.Frame
import proofs.«104663_j62783831933126_2_alg».proof.Proof.Gen.KernelIdeal
import proofs.«104663_j62783831933126_2_alg».proof.Proof.Gen.KernelIdeal.Skeleton
import proofs.«104663_j62783831933126_2_alg».proof.Proof.Gen.KernelIdeal.Launch
import proofs.«104663_j62783831933126_2_alg».proof.Proof.Gen.KernelIdeal.Points
import proofs.«104663_j62783831933126_2_alg».proof.Proof.Gen.KernelIdeal.Frame
import proofs.«104663_j62783831933126_2_alg».proof.Proof.Gen.ReferenceIdeal
import proofs.«104663_j62783831933126_2_alg».proof.Proof.Gen.ReferenceIdeal.Run
import proofs.«104663_j62783831933126_2_alg».proof.Proof.Gen.ReferenceIdeal.Read
import proofs.«104663_j62783831933126_2_alg».proof.Proof.Gen.Pre_finite_inputs
import proofs.«104663_j62783831933126_2_alg».proof.Proof.KernelRun
import proofs.«104663_j62783831933126_2_alg».proof.Proof.RefValue
import proofs.«104663_j62783831933126_2_alg».proof.Proof.Finite
import Idealize.ShloMosaic.Adequacy
import Idealize.ShloMosaic.Init

noncomputable section

namespace Cert.Proof

open Idealize.ShloMosaic Idealize.SL.Sem
open Cert.Attn.RowLaw Cert.Attn.Spec

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on finite arguments, the kernel ends with the context and the attention weights of the
    arguments, and so does the reference: its quotient form of the weights is the kernel's reciprocal-product form
    because the rows' sums are not zero. -/
theorem algebraic : Cert.algebraic_KernelIdeal_ReferenceIdeal := by
  intro m ρ m' ρ' hpre hagree
  refine ⟨fun c => context (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => weights (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ?_) (Cert.ReferenceIdeal.Value.run (F := Ideal) m' ρ')
  obtain ⟨hQ, hK, -⟩ := Cert.Attn.Finite.finite_of_pre _ _ _ (hpre c)
  refine ⟨(h c).1.trans ?_, (h c).2.1.trans ?_, (h c).2.2⟩
  · rw [Cert.ReferenceIdeal.Read.val_main_v12_eq, (hagree c).1, (hagree c).2.1, (hagree c).2.2]
    exact Cert.ReferenceIdeal.RefValue.ref_context _ _ _ hQ hK
  · rw [Cert.ReferenceIdeal.Read.val_main_v11_eq, (hagree c).1, (hagree c).2.1]
    exact Cert.ReferenceIdeal.RefValue.ref_weights _ _ hQ hK

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
